-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x32 .f32) (main_arg1 : IVec S2x1600000 32) (main_arg2 : FVec F S32x64 .f32) (main_arg3 : FVec F S64 .f32) (main_arg4 : FVec F S64x16 .f32) (main_arg5 : FVec F S16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg2
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x32 : Shape := ⟨2, ![10000, 32]⟩
abbrev S10000x64 : Shape := ⟨2, ![10000, 64]⟩
abbrev S1700000x64 : Shape := ⟨2, ![1700000, 64]⟩
abbrev S1x64 : Shape := ⟨2, ![1, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 76
  | .vmem => 16
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x16, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x16, .f32⟩
  | .hbm, ⟨67, _⟩ => ⟨S1700000x1, .f32⟩
  | .hbm, ⟨68, _⟩ => ⟨S1700000x16, .f32⟩
  | .hbm, ⟨69, _⟩ => ⟨S1700000x16, .f32⟩
  | .hbm, ⟨70, _⟩ => ⟨S_, .f32⟩
  | .hbm, ⟨71, _⟩ => ⟨S100000x16, .f32⟩
  | .hbm, ⟨72, _⟩ => ⟨S1700000x1, .i32⟩
  | .hbm, ⟨73, _⟩ => ⟨S100000x16, .f32⟩
  | .hbm, ⟨74, _⟩ => ⟨S1x16, .f32⟩
  | .hbm, ⟨75, _⟩ => ⟨S100000x16, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S10000x16, .f32⟩
  | .local _ .vmem, ⟨13, _⟩ => ⟨S1x16, .f32⟩
  | .local _ .vmem, ⟨14, _⟩ => ⟨S10000x16, .f32⟩
  | .local _ .vmem, ⟨15, _⟩ => ⟨S10000x16, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x16.size a ≤ S100000x16.size a
  hwx1_3 : ∀ i : grid1.Coords, EltTy.bits .f32 = 32 ∨ (Rect.block (s := S100000x16) S10000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S10000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x64 : Shape := ⟨2, ![32, 64]⟩
abbrev S64 : Shape := ⟨1, ![64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S_, .f32⟩
  | .hbm, ⟨63, _⟩ => ⟨S1700000, .f32⟩
  | .hbm, ⟨64, _⟩ => ⟨S_, .f32⟩
  | .hbm, ⟨65, _⟩ => ⟨S100000, .f32⟩
  | .hbm, ⟨66, _⟩ => ⟨S1700000x1, .i32⟩
  | .hbm, ⟨67, _⟩ => ⟨S100000, .f32⟩
  | .hbm, ⟨68, _⟩ => ⟨S100000, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000, .f32⟩
  | .hbm, ⟨87, _⟩ => ⟨S1700000, .f32⟩
  | .hbm, ⟨88, _⟩ => ⟨S100000x16, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x16, .f32⟩
  | .hbm, ⟨98, _⟩ => ⟨S1700000x1, .f32⟩
  | .hbm, ⟨99, _⟩ => ⟨S1700000x16, .f32⟩
  | .hbm, ⟨100, _⟩ => ⟨S1700000x16, .f32⟩
  | .hbm, ⟨101, _⟩ => ⟨S_, .f32⟩
  | .hbm, ⟨102, _⟩ => ⟨S100000x16, .f32⟩
  | .hbm, ⟨103, _⟩ => ⟨S1700000x1, .i32⟩
  | .hbm, ⟨104, _⟩ => ⟨S100000x16, .f32⟩
  | .hbm, ⟨105, _⟩ => ⟨S1x16, .f32⟩
  | .hbm, ⟨106, _⟩ => ⟨S100000x16, .f32⟩
  | .hbm, ⟨107, _⟩ => ⟨S100000x16, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_15 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.Glue.lean ====
/-
  The graph-convolution pipeline shared by the kernel's program and the reference, named piece by piece.

  Both programs add a self loop to every node (`src`, `dst`: the edge list's two rows, each followed by 0 … N-1),
  count each node's incoming edges by a scatter-add of ones over `dst`, take the reciprocal square root of the count,
  and weight edge `k` by the product of that value at its two ends (`norm`). A layer then maps the node features
  by a dense product, gathers the mapped row of every edge's source, scales it by the edge's weight and scatter-adds
  it into the edge's destination (`aggr64`, `aggr16`: the same operations at feature widths 64 and 16), and adds the
  layer's bias. Between the two layers the sum is clamped below at zero. `G` is the whole map of the six arguments.

  None of the gathers, scatters, comparisons or index arithmetic is ever opened by the certificate: the kernel's
  program applies the same operations to the same operands, and the two sides differ only in how the three dense
  steps (`dense1`, `dense2`, `biasOut`) are computed.
-/
import proofs.«154375_j29222957482126_1_alg».proof.ReferenceIdeal

noncomputable section

namespace Cert.Gcn

open Idealize.ShloMosaic Cert.ReferenceIdeal
open Cert.ReferenceIdeal.Facts₀ Cert.ReferenceIdeal.Facts

variable {F : FTy → Type} [FloatOps F] [Cert.ReferenceIdeal.Facts]

/-- The source end of every edge, the self loops last: row 0 of the edge list, then 0 … N-1. -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination end of every edge, the self loops last: row 1 of the edge list, then 0 … N-1. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number per edge as a gather's index column: a negative number counts from the end (N is added). -/
def rowIdx (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- A node number per edge as a scatter's index column. -/
def segIdx (d : (⟨S1700000, .i32⟩ : BufTy).Contents (Elt F)) : (⟨S1700000x1, .i32⟩ : BufTy).Contents (Elt F) :=
  broadcastInDim S1700000x1 ![0] bcast_S1700000_S1700000x1_0 d

/-- One over the square root of each node's number of incoming edges (the self loop counted). -/
def invSqrtDeg (d : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (segIdx d) (broadcastInDim S1700000 ![] bcast_S_S1700000 (constant S_ .f32 0x3F800000#32)))

/-- The weight of every edge: the product of `invSqrtDeg` at its source and at its destination. -/
def norm (s d : (⟨S1700000, .i32⟩ : BufTy).Contents (Elt F)) : (⟨S1700000, .f32⟩ : BufTy).Contents (Elt F) :=
  mulf (Host.gather gather_S100000_S1700000x1_S1700000_n_0_n_n_0_1_1 (invSqrtDeg d) (rowIdx s)) (Host.gather gather_S100000_S1700000x1_S1700000_n_0_n_n_0_1_1 (invSqrtDeg d) (rowIdx d))

/-- Neighbour aggregation at width 64: every edge carries its source's row of `z`, scaled by the edge's weight, into
    its destination's row of the sum. -/
def aggr64 (s d : (⟨S1700000, .i32⟩ : BufTy).Contents (Elt F)) (n : (⟨S1700000, .f32⟩ : BufTy).Contents (Elt F))
    (z : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (segIdx d) (mulf (Host.gather gather_S100000x64_S1700000x1_S1700000x64_1_0_n_n_0_1_164 z (rowIdx s)) (broadcastInDim S1700000x64 ![0, 1] bcast_S1700000x1_S1700000x64_0_1 (broadcastInDim S1700000x1 ![0] bcast_S1700000_S1700000x1_0 n)))

/-- Neighbour aggregation at width 16. -/
def aggr16 (s d : (⟨S1700000, .i32⟩ : BufTy).Contents (Elt F)) (n : (⟨S1700000, .f32⟩ : BufTy).Contents (Elt F))
    (z : (⟨S100000x16, .f32⟩ : BufTy).Contents (Elt F)) : (⟨S100000x16, .f32⟩ : BufTy).Contents (Elt F) :=
  Host.scatterAdd scatter_S100000x16_S1700000x1_S1700000x16_1_0_0_1 (broadcastInDim S100000x16 ![] bcast_S_S100000x16 (constant S_ .f32 0x00000000#32)) (segIdx d) (mulf (Host.gather gather_S100000x16_S1700000x1_S1700000x16_1_0_n_n_0_1_116 z (rowIdx s)) (broadcastInDim S1700000x16 ![0, 1] bcast_S1700000x1_S1700000x16_0_1 (broadcastInDim S1700000x1 ![0] bcast_S1700000_S1700000x1_0 n)))

/-- The first layer's dense step: node features times the 32×64 weights. -/
def dense1 (x : (⟨S100000x32, .f32⟩ : BufTy).Contents (Elt F)) (w : (⟨S32x64, .f32⟩ : BufTy).Contents (Elt F)) :
    (⟨S100000x64, .f32⟩ : BufTy).Contents (Elt F) :=
  Host.dotGeneral dot_S100000x32_S32x64_S100000x64_1_0_0_1_n_n none x w

/-- The second layer's dense step on the first layer's sum `h`: add the bias row `b`, clamp below at zero, times
    the 64×16 weights. -/
def dense2 (h : (⟨S100000x64, .f32⟩ : BufTy).Contents (Elt F)) (b : (⟨S1x64, .f32⟩ : BufTy).Contents (Elt F))
    (w : (⟨S64x16, .f32⟩ : BufTy).Contents (Elt F)) : (⟨S100000x16, .f32⟩ : BufTy).Contents (Elt F) :=
  Host.dotGeneral dot_S100000x64_S64x16_S100000x16_1_0_0_1_n_n none (maximumf (addf h (broadcastInDim S100000x64 ![0, 1] bcast_S1x64_S100000x64_0_1 b)) (broadcastInDim S100000x64 ![] bcast_S_S100000x64 (constant S_ .f32 0x00000000#32))) w

/-- The last step: the second layer's sum plus its bias row. -/
def biasOut (a : (⟨S100000x16, .f32⟩ : BufTy).Contents (Elt F)) (b : (⟨S1x16, .f32⟩ : BufTy).Contents (Elt F)) :
    (⟨S100000x16, .f32⟩ : BufTy).Contents (Elt F) :=
  addf a (broadcastInDim S100000x16 ![0, 1] bcast_S1x16_S100000x16_0_1 b)

/-- A bias vector of 64 entries as one row. -/
def row64 (b : (⟨S64, .f32⟩ : BufTy).Contents (Elt F)) : (⟨S1x64, .f32⟩ : BufTy).Contents (Elt F) :=
  broadcastInDim S1x64 ![1] bcast_S64_S1x64_1 b

/-- A bias vector of 16 entries as one row. -/
def row16 (b : (⟨S16, .f32⟩ : BufTy).Contents (Elt F)) : (⟨S1x16, .f32⟩ : BufTy).Contents (Elt F) :=
  broadcastInDim S1x16 ![1] bcast_S16_S1x16_1 b

/-- The two-layer graph convolution as one function of the arguments. -/
def G (x : (⟨S100000x32, .f32⟩ : BufTy).Contents (Elt F)) (e : (⟨S2x1600000, .i32⟩ : BufTy).Contents (Elt F))
    (w1 : (⟨S32x64, .f32⟩ : BufTy).Contents (Elt F)) (b1 : (⟨S64, .f32⟩ : BufTy).Contents (Elt F))
    (w2 : (⟨S64x16, .f32⟩ : BufTy).Contents (Elt F)) (b2 : (⟨S16, .f32⟩ : BufTy).Contents (Elt F)) :
    (⟨S100000x16, .f32⟩ : BufTy).Contents (Elt F) :=
  biasOut (aggr16 (src e) (dst e) (norm (src e) (dst e))
    (dense2 (aggr64 (src e) (dst e) (norm (src e) (dst e)) (dense1 x w1)) (row64 b1) w2)) (row16 b2)

end Cert.Gcn

end
-- ==== Proof.Stretches.lean ====
/-
  The host operations of the kernel's program between its three dense steps, read as the shared pipeline's pieces.

  From any contents `W` of the buffers, the first stretch leaves the edge ends with their self loops (`src`, `dst`) and
  the edge weights (`norm`) of the edge list it finds; the second leaves the width-64 aggregation of the first dense
  step's output and the first bias as a row; the third the width-16 aggregation of the second dense step's output and
  the second bias as a row. Every other buffer a later step reads is left as found.
-/
import proofs.«154375_j29222957482126_1_alg».proof.Proof.Gen.KernelIdeal.Launch
import proofs.«154375_j29222957482126_1_alg».proof.Proof.Glue
import Idealize.ShloMosaic.Lib.StableHlo.Run

noncomputable section

namespace Cert.Gcn.Stretch

open Idealize.ShloMosaic Idealize.ShloMosaic.TcCoe Idealize.SL.Sem Idealize.ShloMosaic.StableHlo
open Cert.KernelIdeal Cert.KernelIdeal.Gen

variable {F : FTy → Type} [FloatOps F] [Cert.KernelIdeal.Facts] [Cert.ReferenceIdeal.Facts]

/-! ## Before the first dense step -/

theorem src_after (W : Valuation τ sig (Elt F)) :
    after hostOps0 W (Proc.devRef .tc main_v3) = Cert.Gcn.src (W (Proc.devRef .tc main_arg1)) := by
  dsimp only [hostOps0]; after_results_simp; rfl

theorem dst_after (W : Valuation τ sig (Elt F)) :
    after hostOps0 W (Proc.devRef .tc main_v6) = Cert.Gcn.dst (W (Proc.devRef .tc main_arg1)) := by
  dsimp only [hostOps0]; after_results_simp; rfl

theorem norm_after (W : Valuation τ sig (Elt F)) :
    after hostOps0 W (Proc.devRef .tc main_v26)
      = Cert.Gcn.norm (Cert.Gcn.src (W (Proc.devRef .tc main_arg1))) (Cert.Gcn.dst (W (Proc.devRef .tc main_arg1))) := by
  dsimp only [hostOps0]; after_results_simp; rfl

theorem keeps0_arg0 (W : Valuation τ sig (Elt F)) : after hostOps0 W (Proc.devRef .tc main_arg0) = W (Proc.devRef .tc main_arg0) := by
  dsimp only [hostOps0]; after_results_simp
theorem keeps0_arg2 (W : Valuation τ sig (Elt F)) : after hostOps0 W (Proc.devRef .tc main_arg2) = W (Proc.devRef .tc main_arg2) := by
  dsimp only [hostOps0]; after_results_simp
theorem keeps0_arg3 (W : Valuation τ sig (Elt F)) : after hostOps0 W (Proc.devRef .tc main_arg3) = W (Proc.devRef .tc main_arg3) := by
  dsimp only [hostOps0]; after_results_simp
theorem keeps0_arg4 (W : Valuation τ sig (Elt F)) : after hostOps0 W (Proc.devRef .tc main_arg4) = W (Proc.devRef .tc main_arg4) := by
  dsimp only [hostOps0]; after_results_simp
theorem keeps0_arg5 (W : Valuation τ sig (Elt F)) : after hostOps0 W (Proc.devRef .tc main_arg5) = W (Proc.devRef .tc main_arg5) := by
  dsimp only [hostOps0]; after_results_simp

/-! ## Between the first and the second dense step -/

theorem aggr64_after (W : Valuation τ sig (Elt F)) :
    after hostOps1 W (Proc.devRef .tc main_v40)
      = Cert.Gcn.aggr64 (W (Proc.devRef .tc main_v3)) (W (Proc.devRef .tc main_v6)) (W (Proc.devRef .tc main_v26)) (W (Proc.devRef .tc main_v27)) := by
  dsimp only [hostOps1]; after_results_simp; rfl

theorem bias1_after (W : Valuation τ sig (Elt F)) :
    after hostOps1 W (Proc.devRef .tc main_v41) = shapeCast S1x64 (W (Proc.devRef .tc main_arg3)) shapeCasts_S64_S1x64 := by
  dsimp only [hostOps1]; after_results_simp; rfl

theorem keeps1_v3 (W : Valuation τ sig (Elt F)) : after hostOps1 W (Proc.devRef .tc main_v3) = W (Proc.devRef .tc main_v3) := by
  dsimp only [hostOps1]; after_results_simp
theorem keeps1_v6 (W : Valuation τ sig (Elt F)) : after hostOps1 W (Proc.devRef .tc main_v6) = W (Proc.devRef .tc main_v6) := by
  dsimp only [hostOps1]; after_results_simp
theorem keeps1_v26 (W : Valuation τ sig (Elt F)) : after hostOps1 W (Proc.devRef .tc main_v26) = W (Proc.devRef .tc main_v26) := by
  dsimp only [hostOps1]; after_results_simp
theorem keeps1_arg4 (W : Valuation τ sig (Elt F)) : after hostOps1 W (Proc.devRef .tc main_arg4) = W (Proc.devRef .tc main_arg4) := by
  dsimp only [hostOps1]; after_results_simp
theorem keeps1_arg5 (W : Valuation τ sig (Elt F)) : after hostOps1 W (Proc.devRef .tc main_arg5) = W (Proc.devRef .tc main_arg5) := by
  dsimp only [hostOps1]; after_results_simp

/-! ## Between the second dense step and the last -/

theorem aggr16_after (W : Valuation τ sig (Elt F)) :
    after hostOps2 W (Proc.devRef .tc main_v55)
      = Cert.Gcn.aggr16 (W (Proc.devRef .tc main_v3)) (W (Proc.devRef .tc main_v6)) (W (Proc.devRef .tc main_v26)) (W (Proc.devRef .tc main_v42)) := by
  dsimp only [hostOps2]; after_results_simp; rfl

theorem bias2_after (W : Valuation τ sig (Elt F)) :
    after hostOps2 W (Proc.devRef .tc main_v56) = shapeCast S1x16 (W (Proc.devRef .tc main_arg5)) shapeCasts_S16_S1x16 := by
  dsimp only [hostOps2]; after_results_simp; rfl

end Cert.Gcn.Stretch

end
-- ==== Proof.Rows.lean ====
/-
  A bias vector as one row, two ways: the kernel's program reshapes the vector `[n]` to `[1, n]`, the reference
  broadcasts it into `[1, n]` along the second axis. Both read entry `(0, i)` from the vector's entry `i`.
-/
import proofs.«154375_j29222957482126_1_alg».proof.Proof.Glue
import Idealize.ShloMosaic.Lib.Pipeline.Value
import Idealize.ShloMosaic.Lib.ValueIdx
import Idealize.ShloMosaic.Lib.ValueLayout

noncomputable section

namespace Cert.Gcn.Rows

open Idealize.ShloMosaic Idealize.ShloMosaic.ValueIdx

variable {F : FTy → Type} [FloatOps F] [Cert.ReferenceIdeal.Facts]

/-- The 64-entry bias reshaped to a row is the bias broadcast to a row. -/
theorem row64_eq (b : (⟨Cert.ReferenceIdeal.S64, .f32⟩ : BufTy).Contents (Elt F))
    (h : Cert.ReferenceIdeal.S64.ShapeCasts Cert.ReferenceIdeal.S1x64) :
    shapeCast Cert.ReferenceIdeal.S1x64 b h = Cert.Gcn.row64 b := by
  refine funext fun (j : Cert.ReferenceIdeal.S1x64.Idx) => ?_
  obtain ⟨u, i, rfl⟩ : ∃ (u : Fin 1) (i : Fin 64), j = ix2 u i := ⟨j 0, j 1, eq_ix2 j⟩
  refine (shapeCast_a_1a_apply b h u i).trans ?_
  unfold Cert.Gcn.row64
  exact (broadcastInDim_apply _ _ b (ix2 u i) (ix1 i) fun ax => by match ax with | ⟨0, _⟩ => rfl).symm

/-- The 16-entry bias reshaped to a row is the bias broadcast to a row. -/
theorem row16_eq (b : (⟨Cert.ReferenceIdeal.S16, .f32⟩ : BufTy).Contents (Elt F))
    (h : Cert.ReferenceIdeal.S16.ShapeCasts Cert.ReferenceIdeal.S1x16) :
    shapeCast Cert.ReferenceIdeal.S1x16 b h = Cert.Gcn.row16 b := by
  refine funext fun (j : Cert.ReferenceIdeal.S1x16.Idx) => ?_
  obtain ⟨u, i, rfl⟩ : ∃ (u : Fin 1) (i : Fin 16), j = ix2 u i := ⟨j 0, j 1, eq_ix2 j⟩
  refine (shapeCast_a_1a_apply b h u i).trans ?_
  unfold Cert.Gcn.row16
  exact (broadcastInDim_apply _ _ b (ix2 u i) (ix1 i) fun ax => by match ax with | ⟨0, _⟩ => rfl).symm

end Cert.Gcn.Rows

end
-- ==== Proof.LibPlainDot.lean ====
/-
  A plain matrix product read at an entry, on the extended reals.

  For the dimension numbers of an `M×K` by `K×N` product (`DotDims.plain M K N`: contract the left operand's second
  axis with the right operand's first, no batch axis), the sum over the contraction index of the operands' products at
  output entry `(p, j)` is `∑ k, l (p, k) * r (k, j)`: the contraction index is its one coordinate `k`, the left
  operand is read at row `p`, column `k`, the right at row `k`, column `j`. From it: a vector-unit matrix product into
  the zero accumulator (`matmul_zero_apply`) and the host's `dot_general` (`dotGeneral_apply`) at `(p, j)`. A printed
  program's own record of these dimension numbers is `DotDims.plain` of its literal sizes by `rfl`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : ℕ} {φ₁ φ₂ : FTy}

/-- Left operand, axis 0: the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Right operand, axis 1: the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output `(p, j)` and contraction coordinate `k` is `(p, k)`. -/
theorem lhsIdx_plain (p : Fin M) (j : Fin N) (k : Fin K) :
    (DotDims.plain M K N).lhsIdx (ix2 p j) ((contrEquiv1 (DotDims.plain M K N) K rfl rfl).symm k) = ix2 p k := by
  have hk := contrEquiv1_symm_val (DotDims.plain M K N) K rfl rfl k
  exact funext fun a => Fin.ext (by
    match a with
    | ⟨0, _⟩ => exact lhs0 _ _
    | ⟨1, _⟩ => exact ((DotDims.plain M K N).lhsIdx_val_of_single rfl _ _).trans hk)

/-- The right operand's index at output `(p, j)` and contraction coordinate `k` is `(k, j)`. -/
theorem rhsIdx_plain (p : Fin M) (j : Fin N) (k : Fin K) :
    (DotDims.plain M K N).rhsIdx (ix2 p j) ((contrEquiv1 (DotDims.plain M K N) K rfl rfl).symm k) = ix2 k j := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => exact rhs1 _ _)

/-- The contraction's sum at output `(p, j)` is the sum over the contracted coordinate. -/
theorem sum_plain (l : (⟨2, ![M, K]⟩ : Shape).Idx → EReal) (r : (⟨2, ![K, N]⟩ : Shape).Idx → EReal) (p : Fin M) (j : Fin N) :
    ∑ q : (DotDims.plain M K N).contr.Idx,
        l ((DotDims.plain M K N).lhsIdx (ix2 p j) q) * r ((DotDims.plain M K N).rhsIdx (ix2 p j) q)
      = ∑ k : Fin K, l (ix2 p k) * r (ix2 k j) := by
  rw [← Equiv.sum_comp (contrEquiv1 (DotDims.plain M K N) K rfl rfl).symm]
  refine Finset.sum_congr rfl fun k _ => ?_
  rw [lhsIdx_plain, rhsIdx_plain]

/-- A matrix product on the vector unit into the zero accumulator, at entry `(p, j)`. -/
theorem matmul_zero_apply (prec : Option ContractPrecision) (l : FVec Ideal ⟨2, ![M, K]⟩ φ₁) (r : FVec Ideal ⟨2, ![K, N]⟩ φ₂)
    (p : Fin M) (j : Fin N) :
    FloatOps.matmul (DotDims.plain M K N) prec l r (constant ⟨2, ![M, N]⟩ .f32 0x00000000#32) (ix2 p j)
      = ∑ k : Fin K, l (ix2 p k) * r (ix2 k j) := by
  rw [Ideal.matmul_constant_zero_apply]
  exact sum_plain l r p j

/-- The host's `dot_general` at entry `(p, j)`, whatever its schedule. -/
theorem dotGeneral_apply (prec : Option ContractPrecision) (sched : HostSchedule) (l : FVec Ideal ⟨2, ![M, K]⟩ φ₁)
    (r : FVec Ideal ⟨2, ![K, N]⟩ φ₂) (p : Fin M) (j : Fin N) :
    FloatOps.dotGeneral (DotDims.plain M K N) prec sched l r (ix2 p j) = ∑ k : Fin K, l (ix2 p k) * r (ix2 k j) := by
  rw [Ideal.dotGeneral_apply]
  exact sum_plain l r p j

end Cert.Lib.PlainDot

end
-- ==== Proof.Region0.lean ====
/-
  The first dense step of the kernel's program: node features times the 32×64 weights, ten row blocks of 10000 rows.

  At grid point `t` the body loads rows `10000·t … 10000·t + 9999` of the features and the whole weight matrix,
  multiplies them on the matrix unit into a zero accumulator and stores the block. On the extended reals a change of
  float format is the identity and the product's entry `(p, q)` is `∑ k, x (10000·t + p, k) · w (k, q)`: entry
  `(10000·t + p, q)` of the whole product `dense1`, whose rows do not mix. So each point writes back its block of ONE
  whole-array function, the ten blocks tile the array, and the array ends holding `dense1` of the two arrays the region
  found.
-/
import proofs.«154375_j29222957482126_1_alg».proof.Proof.Gen.KernelIdeal.Frame
import proofs.«154375_j29222957482126_1_alg».proof.Proof.Glue
import proofs.«154375_j29222957482126_1_alg».proof.Proof.LibPlainDot
import Idealize.ShloMosaic.Lib.Pipeline.Value
import Idealize.ShloMosaic.Lib.ValueIdx

noncomputable section

open scoped BigOperators

namespace Cert.Gcn.MatMul1

open Idealize.ShloMosaic Idealize.ShloMosaic.TcCoe Idealize.SL.Sem Idealize.ShloMosaic.ValueIdx
open Idealize.ShloMosaic.Pipeline (Dat)
open Cert.KernelIdeal Cert.KernelIdeal.Gen

variable [Cert.KernelIdeal.Facts] [Cert.ReferenceIdeal.Facts]

theorem hz : (![0, 0] : Fin 2 → Nat) = fun _ => 0 := funext fun a => by fin_cases a <;> rfl

/-- The body's stored value at entry `(p, q)`: row `p` of the loaded block against column `q` of the weights. -/
theorem pay_apply (x0 : Vec Ideal S10000x32 .f32) (x1 : Vec Ideal S32x64 .f32) (p : Fin 10000) (q : Fin 64) :
    k0_pay1 x0 x1 (ix2 p q) = ∑ k : Fin 32, x0 (ix2 p k) * x1 (ix2 k q) := by
  unfold k0_pay1
  exact Cert.Lib.PlainDot.matmul_zero_apply (M := 10000) (K := 32) (N := 64) none
    (truncf .bf16 x0 bitsLt_bf16_f32) (truncf .bf16 x1 bitsLt_bf16_f32) p q

/-- The whole product at entry `(r, q)`: row `r` of the features against column `q` of the weights. -/
theorem dense1_apply (x : (⟨Cert.ReferenceIdeal.S100000x32, .f32⟩ : BufTy).Contents (Elt Ideal))
    (w : (⟨Cert.ReferenceIdeal.S32x64, .f32⟩ : BufTy).Contents (Elt Ideal)) (r : Fin 100000) (q : Fin 64) :
    Cert.Gcn.dense1 (F := Ideal) x w (ix2 r q) = ∑ k : Fin 32, x (ix2 r k) * w (ix2 k q) := by
  unfold Cert.Gcn.dense1
  exact Cert.Lib.PlainDot.dotGeneral_apply (M := 100000) (K := 32) (N := 64) none .single x w r q

/-- The printed index maps, decided over the ten points: the feature block moves with the output block along the
    rows, the weights stay, and no map moves along the columns. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 9 :=
  (by decide +kernel : ∀ t : Fin grid0.N, _)

/-- Every row block is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point `t` writes back is its block of `dense1` of the two arrays the region found. -/
theorem flushed_eq (c : Dev nD) (t : Fin cfg0.N) :
    (dat0 V c).flushed 2 t = ((cfg0.win 2).blk t).view.read (Elt Ideal) (Cert.Gcn.dense1 (V c main_arg0) (V c main_arg2)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x64) hz]
  obtain ⟨e0, e1, e2, e3, e4, e5⟩ := idx_facts t
  refine funext fun (j : S10000x64.Idx) => ?_
  obtain ⟨p, q, rfl⟩ : ∃ (p : Fin 10000) (q : Fin 64), j = ix2 p q := ⟨j 0, j 1, eq_ix2 j⟩
  have hr : win0_2.index t (0 : Fin 2) * 10000 + p.val < 100000 := by have := p.isLt; omega
  have hE : ((cfg0.win 2).blk t).view.emb (ix2 p q)
      = (ix2 (⟨win0_2.index t (0 : Fin 2) * 10000 + p.val, hr⟩ : Fin 100000) q : S100000x64.Idx) :=
    funext fun a => Fin.ext (by
      match a with
      | ⟨0, _⟩ => show win0_2.index t (0 : Fin 2) * 10000 + 1 * p.val = win0_2.index t (0 : Fin 2) * 10000 + p.val; omega
      | ⟨1, _⟩ => show win0_2.index t (1 : Fin 2) * 64 + 1 * q.val = q.val; omega)
  show k0_pay1 (iblk0 V c 0 t) (iblk0 V c 1 t) (ix2 p q)
    = Cert.Gcn.dense1 (V c main_arg0) (V c main_arg2) (((cfg0.win 2).blk t).view.emb (ix2 p q))
  refine (pay_apply _ _ p q).trans (Eq.trans ?_ (congrArg (Cert.Gcn.dense1 (V c main_arg0) (V c main_arg2)) hE).symm)
  refine Eq.trans ?_ (dense1_apply _ _ _ q).symm
  refine Finset.sum_congr rfl fun k _ => ?_
  refine congrArg₂ (· * ·) ?_ ?_
  · show V c main_arg0 (((cfg0.win 0).blk t).view.emb (ix2 p k))
      = V c main_arg0 (ix2 (⟨win0_2.index t (0 : Fin 2) * 10000 + p.val, hr⟩ : Fin 100000) k : S100000x32.Idx)
    refine congrArg _ (funext fun a => Fin.ext ?_)
    match a with
    | ⟨0, _⟩ => show win0_0.index t (0 : Fin 2) * 10000 + 1 * p.val = win0_2.index t (0 : Fin 2) * 10000 + p.val; omega
    | ⟨1, _⟩ => show win0_0.index t (1 : Fin 2) * 32 + 1 * k.val = k.val; omega
  · show V c main_arg2 (((cfg0.win 1).blk t).view.emb (ix2 k q)) = V c main_arg2 (ix2 k q : S32x64.Idx)
    refine congrArg _ (funext fun a => Fin.ext ?_)
    match a with
    | ⟨0, _⟩ => show win0_1.index t (0 : Fin 2) * 32 + 1 * k.val = k.val; omega
    | ⟨1, _⟩ => show win0_1.index t (1 : Fin 2) * 64 + 1 * q.val = q.val; omega

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v27).slice (win0_2.rect t)).set ↔ _
  rw [View.set_slice_whole, Rect.mem_set_unit]
  exact Iff.rfl

/-- The ten blocks tile the array: row `r` is in the block of the point whose block index is `r / 10000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region its output array is `dense1` of the two arrays it found. -/
theorem final (c : Dev nD) :
    (dat0 V c).arrAt 2 cfg0.N = Cert.Gcn.dense1 (V c main_arg0) (V c main_arg2) :=
  (dat0 V c).arrAt_eq_of_cover 2 (Cert.Gcn.dense1 (V c main_arg0) (V c main_arg2)) (fun t _ => flushed_eq V c t) cover

end Cert.Gcn.MatMul1

end
-- ==== Proof.Region1.lean ====
/-
  The second dense step of the kernel's program, fused: add the bias row, clamp below at zero, times the 64×16 weights;
  ten row blocks of 10000 rows.

  At grid point `t` the body loads rows `10000·t … 10000·t + 9999` of the first layer's sum, the one bias row and the
  whole weight matrix. On the extended reals a change of float format is the identity, so entry `(p, q)` of what it
  stores is `∑ k, max (h (10000·t + p, k) + b k) 0 · w (k, q)`: entry `(10000·t + p, q)` of the whole-array function
  `dense2`, whose rows do not mix. So each point writes back its block of ONE whole-array function, the ten blocks tile
  the array, and the array ends holding `dense2` of the three arrays the region found.
-/
import proofs.«154375_j29222957482126_1_alg».proof.Proof.Gen.KernelIdeal.Frame
import proofs.«154375_j29222957482126_1_alg».proof.Proof.Glue
import proofs.«154375_j29222957482126_1_alg».proof.Proof.LibPlainDot
import Idealize.ShloMosaic.Lib.Pipeline.Value
import Idealize.ShloMosaic.Lib.ValueIdx
import Idealize.ShloMosaic.Lib.ValueLayout

noncomputable section

open scoped BigOperators

namespace Cert.Gcn.MatMul2

open Idealize.ShloMosaic Idealize.ShloMosaic.TcCoe Idealize.SL.Sem Idealize.ShloMosaic.ValueIdx
open Idealize.ShloMosaic.Pipeline (Dat)
open Cert.KernelIdeal Cert.KernelIdeal.Gen

variable [Cert.KernelIdeal.Facts] [Cert.ReferenceIdeal.Facts]

theorem hz : (![0, 0] : Fin 2 → Nat) = fun _ => 0 := funext fun a => by fin_cases a <;> rfl

/-- The body's stored value at entry `(p, q)`: row `p` of the loaded block, the bias row added and the sum clamped
    below at zero, against column `q` of the weights. -/
theorem pay_apply (x0 : Vec Ideal S10000x64 .f32) (x1 : Vec Ideal S1x64 .f32) (x2 : Vec Ideal S64x16 .f32)
    (p : Fin 10000) (q : Fin 16) :
    k1_pay1 x0 x1 x2 (ix2 p q)
      = ∑ k : Fin 64, max (x0 (ix2 p k) + x1 (ix2 (0 : Fin 1) k)) (Ideal.ofBits .f32 0x00000000#32) * x2 (ix2 k q) := by
  unfold k1_pay1
  refine (Cert.Lib.PlainDot.matmul_zero_apply (M := 10000) (K := 64) (N := 16) none
    (truncf .bf16 (maximumf (addf (shapeCast S10000x64 x0 shapeCasts_S10000x64_S10000x64)
        (broadcastTo S10000x64 (shapeCast S1x64 x1 shapeCasts_S1x64_S1x64) broadcasts_S1x64_S10000x64))
      (broadcast S10000x64 (Scalar.ofBits .f32 0x00000000#32))) bitsLt_bf16_f32)
    (truncf .bf16 x2 bitsLt_bf16_f32) p q).trans ?_
  refine Finset.sum_congr rfl fun k _ => ?_
  refine congrArg₂ (· * ·) ?_ rfl
  show max (shapeCast S10000x64 x0 shapeCasts_S10000x64_S10000x64 (ix2 p k)
      + broadcastTo S10000x64 (shapeCast S1x64 x1 shapeCasts_S1x64_S1x64) broadcasts_S1x64_S10000x64 (ix2 p k))
    (Ideal.ofBits .f32 0x00000000#32) = _
  rw [shapeCast_self, shapeCast_self, broadcastTo_1b_ab_apply]

/-- The whole-array step at entry `(r, q)`: row `r` of the sum, the bias row added and clamped below at zero, against
    column `q` of the weights. -/
theorem dense2_apply (h : (⟨Cert.ReferenceIdeal.S100000x64, .f32⟩ : BufTy).Contents (Elt Ideal))
    (b : (⟨Cert.ReferenceIdeal.S1x64, .f32⟩ : BufTy).Contents (Elt Ideal))
    (w : (⟨Cert.ReferenceIdeal.S64x16, .f32⟩ : BufTy).Contents (Elt Ideal)) (r : Fin 100000) (q : Fin 16) :
    Cert.Gcn.dense2 (F := Ideal) h b w (ix2 r q)
      = ∑ k : Fin 64, max (h (ix2 r k) + b (ix2 (0 : Fin 1) k)) (Ideal.ofBits .f32 0x00000000#32) * w (ix2 k q) := by
  unfold Cert.Gcn.dense2
  refine (Cert.Lib.PlainDot.dotGeneral_apply (M := 100000) (K := 64) (N := 16) none .single _ w r q).trans ?_
  refine Finset.sum_congr rfl fun k _ => ?_
  refine congrArg₂ (· * ·) ?_ rfl
  show max (h (ix2 r k) + broadcastInDim Cert.ReferenceIdeal.S100000x64 ![0, 1] Cert.ReferenceIdeal.Facts₀.bcast_S1x64_S100000x64_0_1 b (ix2 r k))
    (Ideal.ofBits .f32 0x00000000#32) = _
  refine congrArg (fun y => max (h (ix2 r k) + y) (Ideal.ofBits .f32 0x00000000#32))
    (broadcastInDim_apply _ _ b (ix2 r k) (ix2 (0 : Fin 1) k) fun ax => ?_)
  match ax with
  | ⟨0, _⟩ => rfl
  | ⟨1, _⟩ => rfl

/-- The printed index maps, decided over the ten points: the block of the sum moves with the output block along the
    rows, the bias row and the weights stay, and no map moves along the columns. -/
theorem idx_facts : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point `t` writes back is its block of `dense2` of the three arrays the region found. -/
theorem flushed_eq (c : Dev nD) (t : Fin cfg1.N) :
    (dat1 V c).flushed 3 t
      = ((cfg1.win 3).blk t).view.read (Elt Ideal) (Cert.Gcn.dense2 (V c main_v40) (V c main_v41) (V c main_arg4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x16) hz]
  obtain ⟨e0, e1, e2, e3, e4, e5, e6, e7⟩ := idx_facts t
  refine funext fun (j : S10000x16.Idx) => ?_
  obtain ⟨p, q, rfl⟩ : ∃ (p : Fin 10000) (q : Fin 16), j = ix2 p q := ⟨j 0, j 1, eq_ix2 j⟩
  have hr : win1_3.index t (0 : Fin 2) * 10000 + p.val < 100000 := by have := p.isLt; omega
  have hE : ((cfg1.win 3).blk t).view.emb (ix2 p q)
      = (ix2 (⟨win1_3.index t (0 : Fin 2) * 10000 + p.val, hr⟩ : Fin 100000) q : S100000x16.Idx) :=
    funext fun a => Fin.ext (by
      match a with
      | ⟨0, _⟩ => show win1_3.index t (0 : Fin 2) * 10000 + 1 * p.val = win1_3.index t (0 : Fin 2) * 10000 + p.val; omega
      | ⟨1, _⟩ => show win1_3.index t (1 : Fin 2) * 16 + 1 * q.val = q.val; omega)
  show k1_pay1 (iblk1 V c 0 t) (iblk1 V c 1 t) (iblk1 V c 2 t) (ix2 p q)
    = Cert.Gcn.dense2 (V c main_v40) (V c main_v41) (V c main_arg4) (((cfg1.win 3).blk t).view.emb (ix2 p q))
  refine (pay_apply _ _ _ p q).trans
    (Eq.trans ?_ (congrArg (Cert.Gcn.dense2 (V c main_v40) (V c main_v41) (V c main_arg4)) hE).symm)
  refine Eq.trans ?_ (dense2_apply _ _ _ _ q).symm
  refine Finset.sum_congr rfl fun k _ => ?_
  refine congrArg₂ (fun u v => max u (Ideal.ofBits .f32 0x00000000#32) * v) (congrArg₂ (· + ·) ?_ ?_) ?_
  · show V c main_v40 (((cfg1.win 0).blk t).view.emb (ix2 p k))
      = V c main_v40 (ix2 (⟨win1_3.index t (0 : Fin 2) * 10000 + p.val, hr⟩ : Fin 100000) k : S100000x64.Idx)
    refine congrArg _ (funext fun a => Fin.ext ?_)
    match a with
    | ⟨0, _⟩ => show win1_0.index t (0 : Fin 2) * 10000 + 1 * p.val = win1_3.index t (0 : Fin 2) * 10000 + p.val; omega
    | ⟨1, _⟩ => show win1_0.index t (1 : Fin 2) * 64 + 1 * k.val = k.val; omega
  · show V c main_v41 (((cfg1.win 1).blk t).view.emb (ix2 (0 : Fin 1) k)) = V c main_v41 (ix2 (0 : Fin 1) k : S1x64.Idx)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * k.val = k.val; omega
  · show V c main_arg4 (((cfg1.win 2).blk t).view.emb (ix2 k q)) = V c main_arg4 (ix2 k q : S64x16.Idx)
    refine congrArg _ (funext fun a => Fin.ext ?_)
    match a with
    | ⟨0, _⟩ => show win1_2.index t (0 : Fin 2) * 64 + 1 * k.val = k.val; omega
    | ⟨1, _⟩ => show win1_2.index t (1 : Fin 2) * 16 + 1 * q.val = q.val; omega

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S10000x16.size a ≤ (i a).val ∧ (i a).val < win1_3.index t a * S10000x16.size a + S10000x16.size a := by
  show i ∈ ((View.whole main_v42).slice (win1_3.rect t)).set ↔ _
  rw [View.set_slice_whole, Rect.mem_set_unit]
  exact Iff.rfl

/-- The ten blocks tile the array: row `r` is in the block of the point whose block index is `r / 10000`. -/
theorem cover (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  obtain ⟨t, ht⟩ := idx_onto ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 16 ≤ (i 1).val ∧ (i 1).val < win1_3.index t (1 : Fin 2) * 16 + 16; omega

/-- After the region its output array is `dense2` of the three arrays it found. -/
theorem final (c : Dev nD) :
    (dat1 V c).arrAt 3 cfg1.N = Cert.Gcn.dense2 (V c main_v40) (V c main_v41) (V c main_arg4) :=
  (dat1 V c).arrAt_eq_of_cover 3 (Cert.Gcn.dense2 (V c main_v40) (V c main_v41) (V c main_arg4)) (fun t _ => flushed_eq V c t) cover

end Cert.Gcn.MatMul2

end
-- ==== Proof.Region2.lean ====
/-
  The last dense step of the kernel's program: the bias add, ten row blocks of 10000 rows.

  At grid point `t` the body loads rows `10000·t … 10000·t + 9999` of the aggregated features and the one bias row,
  adds the row to every loaded row and stores the block back. Entry `(p, q)` of the stored block is the sum's entry
  `(10000·t + p, q)` plus the bias at `q`: that is entry `(10000·t + p, q)` of `biasOut` of the two arrays, so
  each point writes back its block of ONE whole-array function, the ten blocks tile the array, and the array ends
  holding `biasOut` of the two arrays the region found.
-/
import proofs.«154375_j29222957482126_1_alg».proof.Proof.Gen.KernelIdeal.Frame
import proofs.«154375_j29222957482126_1_alg».proof.Proof.Glue
import Idealize.ShloMosaic.Lib.Pipeline.Value
import Idealize.ShloMosaic.Lib.ValueIdx
import Idealize.ShloMosaic.Lib.ValueLayout

noncomputable section

namespace Cert.Gcn.BiasAdd

open Idealize.ShloMosaic Idealize.ShloMosaic.TcCoe Idealize.SL.Sem Idealize.ShloMosaic.ValueIdx
open Idealize.ShloMosaic.Pipeline (Dat)
open Cert.KernelIdeal Cert.KernelIdeal.Gen

variable {F : FTy → Type} [FloatOps F] [Cert.KernelIdeal.Facts] [Cert.ReferenceIdeal.Facts]

theorem hz : (![0, 0] : Fin 2 → Nat) = fun _ => 0 := funext fun a => by fin_cases a <;> rfl

/-- The body's stored value at entry `(p, q)`: the loaded block's entry plus the bias row's entry `q`. -/
theorem pay_apply (x0 : Vec F S10000x16 .f32) (x1 : Vec F S1x16 .f32) (p : Fin 10000) (q : Fin 16) :
    k2_pay1 x0 x1 (ix2 p q) = FloatOps.addf (x0 (ix2 p q)) (x1 (ix2 (0 : Fin 1) q)) := by
  unfold k2_pay1
  show FloatOps.addf (shapeCast S10000x16 x0 shapeCasts_S10000x16_S10000x16 (ix2 p q))
    (broadcastTo S10000x16 (shapeCast S1x16 x1 shapeCasts_S1x16_S1x16) broadcasts_S1x16_S10000x16 (ix2 p q)) = _
  rw [shapeCast_self, shapeCast_self]
  exact congrArg _ (broadcastTo_1b_ab_apply x1 _ p q)

/-- `biasOut` at entry `(r, q)`: the array's entry plus the bias row's entry `q`. -/
theorem biasOut_apply (a : (⟨Cert.ReferenceIdeal.S100000x16, .f32⟩ : BufTy).Contents (Elt F))
    (b : (⟨Cert.ReferenceIdeal.S1x16, .f32⟩ : BufTy).Contents (Elt F)) (r : Fin 100000) (q : Fin 16) :
    Cert.Gcn.biasOut a b (ix2 r q) = FloatOps.addf (a (ix2 r q)) (b (ix2 (0 : Fin 1) q)) := by
  unfold Cert.Gcn.biasOut
  refine congrArg (FloatOps.addf (a (ix2 r q))) (broadcastInDim_apply _ _ b (ix2 r q) (ix2 (0 : Fin 1) q) fun ax => ?_)
  match ax with
  | ⟨0, _⟩ => rfl
  | ⟨1, _⟩ => rfl

/-- The printed index maps, decided over the ten points: the input block moves with the output block along the
    rows, the bias row stays, and no map moves along the columns. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = 0 ∧ win2_1.index t (1 : Fin 2) = 0
    ∧ win2_2.index t (0 : Fin 2) ≤ 9 :=
  (by decide +kernel : ∀ t : Fin grid2.N, _)

/-- Every row block is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt F) ((c : Thread nD τ).loc b))

/-- What point `t` writes back is its block of `biasOut` of the two arrays the region found. -/
theorem flushed_eq (c : Dev nD) (t : Fin cfg2.N) :
    (dat2 V c).flushed 2 t = ((cfg2.win 2).blk t).view.read (Elt F) (Cert.Gcn.biasOut (V c main_v55) (V c main_v56)) := by
  show (cfg2.win 2).cut (grid2.coords t) ((dat2 V c).after 2 t) = _
  rw [after2_2]
  unfold out2_2
  rw [View.canon_unit_zero hz]
  simp only [View.ld_unit_zero (S := S10000x16) hz, View.ld_unit_zero (S := S1x16) hz]
  obtain ⟨e0, e1, e2, e3, e4, e5⟩ := idx_facts t
  refine funext fun (j : S10000x16.Idx) => ?_
  obtain ⟨p, q, rfl⟩ : ∃ (p : Fin 10000) (q : Fin 16), j = ix2 p q := ⟨j 0, j 1, eq_ix2 j⟩
  have hr : win2_2.index t (0 : Fin 2) * 10000 + p.val < 100000 := by have := p.isLt; omega
  have hE : ((cfg2.win 2).blk t).view.emb (ix2 p q)
      = (ix2 (⟨win2_2.index t (0 : Fin 2) * 10000 + p.val, hr⟩ : Fin 100000) q : S100000x16.Idx) :=
    funext fun a => Fin.ext (by
      match a with
      | ⟨0, _⟩ => show win2_2.index t (0 : Fin 2) * 10000 + 1 * p.val = win2_2.index t (0 : Fin 2) * 10000 + p.val; omega
      | ⟨1, _⟩ => show win2_2.index t (1 : Fin 2) * 16 + 1 * q.val = q.val; omega)
  show k2_pay1 (iblk2 V c 0 t) (iblk2 V c 1 t) (ix2 p q)
    = Cert.Gcn.biasOut (V c main_v55) (V c main_v56) (((cfg2.win 2).blk t).view.emb (ix2 p q))
  refine (pay_apply _ _ p q).trans (Eq.trans ?_ (congrArg (Cert.Gcn.biasOut (V c main_v55) (V c main_v56)) hE).symm)
  refine Eq.trans ?_ (biasOut_apply _ _ _ q).symm
  refine congrArg₂ FloatOps.addf ?_ ?_
  · show V c main_v55 (((cfg2.win 0).blk t).view.emb (ix2 p q))
      = V c main_v55 (ix2 (⟨win2_2.index t (0 : Fin 2) * 10000 + p.val, hr⟩ : Fin 100000) q : S100000x16.Idx)
    refine congrArg _ (funext fun a => Fin.ext ?_)
    match a with
    | ⟨0, _⟩ => show win2_0.index t (0 : Fin 2) * 10000 + 1 * p.val = win2_2.index t (0 : Fin 2) * 10000 + p.val; omega
    | ⟨1, _⟩ => show win2_0.index t (1 : Fin 2) * 16 + 1 * q.val = q.val; omega
  · show V c main_v56 (((cfg2.win 1).blk t).view.emb (ix2 (0 : Fin 1) q)) = V c main_v56 (ix2 (0 : Fin 1) q : S1x16.Idx)
    refine congrArg _ (funext fun a => Fin.ext ?_)
    match a with
    | ⟨0, _⟩ => show win2_1.index t (0 : Fin 2) * 1 + 1 * 0 = 0; omega
    | ⟨1, _⟩ => show win2_1.index t (1 : Fin 2) * 16 + 1 * q.val = q.val; omega

/-- An index of the array is in point `t`'s block iff each coordinate is in the block's range on its axis. -/
theorem mem_blk (t : Fin cfg2.N) (i : S100000x16.Idx) :
    i ∈ ((cfg2.win 2).blk t).view.set ↔ ∀ a : Fin 2, win2_2.index t a * S10000x16.size a ≤ (i a).val ∧ (i a).val < win2_2.index t a * S10000x16.size a + S10000x16.size a := by
  show i ∈ ((View.whole main_v57).slice (win2_2.rect t)).set ↔ _
  rw [View.set_slice_whole, Rect.mem_set_unit]
  exact Iff.rfl

/-- The ten blocks tile the array: row `r` is in the block of the point whose block index is `r / 10000`. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 16 ≤ (i 1).val ∧ (i 1).val < win2_2.index t (1 : Fin 2) * 16 + 16; omega

/-- After the region its output array is `biasOut` of the two arrays it found. -/
theorem final (c : Dev nD) :
    (dat2 V c).arrAt 2 cfg2.N = Cert.Gcn.biasOut (V c main_v55) (V c main_v56) :=
  (dat2 V c).arrAt_eq_of_cover 2 (Cert.Gcn.biasOut (V c main_v55) (V c main_v56)) (fun t _ => flushed_eq V c t) cover

end Cert.Gcn.BiasAdd

end
-- ==== Proof.KernelRun.lean ====
/-
  The kernel's program read as the shared pipeline: its result array is `G` of its arguments.

  The program is three dense steps run on the TensorCore among three stretches of host operations. Reading its buffers
  at each boundary, from the launch on: the first stretch leaves the edge ends and the edge weights of the edge list;
  the first dense step leaves `dense1` of the features and the first weights; the second stretch aggregates that at
  width 64 and lays the first bias out as a row; the second dense step leaves `dense2` of the aggregate, the bias row and
  the second weights; the third stretch aggregates that at width 16 and lays the second bias out as a row; the last step
  adds that row. No step writes an argument, the edge ends or the edge weights, so each is read where it was first
  written. Composed, the result array holds `G` of the six arguments.
-/
import proofs.«154375_j29222957482126_1_alg».proof.Proof.Gen.KernelIdeal.Frame
import proofs.«154375_j29222957482126_1_alg».proof.Proof.Stretches
import proofs.«154375_j29222957482126_1_alg».proof.Proof.Rows
import proofs.«154375_j29222957482126_1_alg».proof.Proof.Region0
import proofs.«154375_j29222957482126_1_alg».proof.Proof.Region1
import proofs.«154375_j29222957482126_1_alg».proof.Proof.Region2

set_option maxRecDepth 16384

noncomputable section

namespace Cert.Gcn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable [Cert.KernelIdeal.Facts] [Cert.ReferenceIdeal.Facts]

local notation "𝕄" => MT nD τ sig Unit (Elt Ideal) ℕ (UR sig nD τ) ℕ

variable (m : (ℓ : Loc nD τ sig) → Buf (Elt Ideal) ℓ) (ρ : Dev nD → PrngReg)

/-- The edge ends and the edge weights of the launch memory's edge list. -/
abbrev srcOf (c : Dev nD) := Cert.Gcn.src (F := Ideal) (m ((c : Thread nD τ).loc main_arg1))
abbrev dstOf (c : Dev nD) := Cert.Gcn.dst (F := Ideal) (m ((c : Thread nD τ).loc main_arg1))
abbrev normOf (c : Dev nD) := Cert.Gcn.norm (F := Ideal) (srcOf m c) (dstOf m c)

/-! ## At the first dense step's entry -/

theorem W1_arg0 (c : Dev nD) : W1 m ρ c (Proc.devRef .tc main_arg0) = m ((c : Thread nD τ).loc main_arg0) :=
  Stretch.keeps0_arg0 (W0 m ρ c)
theorem W1_arg2 (c : Dev nD) : W1 m ρ c (Proc.devRef .tc main_arg2) = m ((c : Thread nD τ).loc main_arg2) :=
  Stretch.keeps0_arg2 (W0 m ρ c)
theorem W1_arg3 (c : Dev nD) : W1 m ρ c (Proc.devRef .tc main_arg3) = m ((c : Thread nD τ).loc main_arg3) :=
  Stretch.keeps0_arg3 (W0 m ρ c)
theorem W1_arg4 (c : Dev nD) : W1 m ρ c (Proc.devRef .tc main_arg4) = m ((c : Thread nD τ).loc main_arg4) :=
  Stretch.keeps0_arg4 (W0 m ρ c)
theorem W1_arg5 (c : Dev nD) : W1 m ρ c (Proc.devRef .tc main_arg5) = m ((c : Thread nD τ).loc main_arg5) :=
  Stretch.keeps0_arg5 (W0 m ρ c)
theorem W1_src (c : Dev nD) : W1 m ρ c (Proc.devRef .tc main_v3) = srcOf m c := Stretch.src_after (W0 m ρ c)
theorem W1_dst (c : Dev nD) : W1 m ρ c (Proc.devRef .tc main_v6) = dstOf m c := Stretch.dst_after (W0 m ρ c)
theorem W1_norm (c : Dev nD) : W1 m ρ c (Proc.devRef .tc main_v26) = normOf m c := Stretch.norm_after (W0 m ρ c)

/-! ## At the first dense step's exit -/

theorem W2_dense (c : Dev nD) :
    W2 m ρ c (Proc.devRef .tc main_v27)
      = Cert.Gcn.dense1 (F := Ideal) (m ((c : Thread nD τ).loc main_arg0)) (m ((c : Thread nD τ).loc main_arg2)) := by
  refine (W2_arr m ρ c 2).trans ((MatMul1.final (V1 m ρ) c).trans ?_)
  show Cert.Gcn.dense1 (F := Ideal) (W1 m ρ c (Proc.devRef .tc main_arg0)) (W1 m ρ c (Proc.devRef .tc main_arg2)) = _
  rw [W1_arg0, W1_arg2]
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_src (c : Dev nD) : W2 m ρ c (Proc.devRef .tc main_v3) = srcOf m c :=
  (W2_of_ne m ρ c main_v3 (by decide)).trans (W1_src m ρ c)
theorem W2_dst (c : Dev nD) : W2 m ρ c (Proc.devRef .tc main_v6) = dstOf m c :=
  (W2_of_ne m ρ c main_v6 (by decide)).trans (W1_dst m ρ c)
theorem W2_norm (c : Dev nD) : W2 m ρ c (Proc.devRef .tc main_v26) = normOf m c :=
  (W2_of_ne m ρ c main_v26 (by decide)).trans (W1_norm m ρ c)

/-! ## At the second dense step's entry -/

/-- The first layer's aggregate. -/
abbrev agg1 (c : Dev nD) := Cert.Gcn.aggr64 (F := Ideal) (srcOf m c) (dstOf m c) (normOf m c)
  (Cert.Gcn.dense1 (F := Ideal) (m ((c : Thread nD τ).loc main_arg0)) (m ((c : Thread nD τ).loc main_arg2)))

theorem W3_agg (c : Dev nD) : W3 m ρ c (Proc.devRef .tc main_v40) = agg1 m c := by
  refine (Stretch.aggr64_after (W2 m ρ c)).trans ?_
  rw [W2_src, W2_dst, W2_norm, W2_dense]
theorem W3_bias (c : Dev nD) :
    W3 m ρ c (Proc.devRef .tc main_v41) = Cert.Gcn.row64 (F := Ideal) (m ((c : Thread nD τ).loc main_arg3)) := by
  refine (Stretch.bias1_after (W2 m ρ c)).trans ?_
  rw [W2_arg3]
  exact Rows.row64_eq _ _
theorem W3_arg4 (c : Dev nD) : W3 m ρ c (Proc.devRef .tc main_arg4) = m ((c : Thread nD τ).loc main_arg4) :=
  (Stretch.keeps1_arg4 (W2 m ρ c)).trans (W2_arg4 m ρ c)
theorem W3_arg5 (c : Dev nD) : W3 m ρ c (Proc.devRef .tc main_arg5) = m ((c : Thread nD τ).loc main_arg5) :=
  (Stretch.keeps1_arg5 (W2 m ρ c)).trans (W2_arg5 m ρ c)
theorem W3_src (c : Dev nD) : W3 m ρ c (Proc.devRef .tc main_v3) = srcOf m c :=
  (Stretch.keeps1_v3 (W2 m ρ c)).trans (W2_src m ρ c)
theorem W3_dst (c : Dev nD) : W3 m ρ c (Proc.devRef .tc main_v6) = dstOf m c :=
  (Stretch.keeps1_v6 (W2 m ρ c)).trans (W2_dst m ρ c)
theorem W3_norm (c : Dev nD) : W3 m ρ c (Proc.devRef .tc main_v26) = normOf m c :=
  (Stretch.keeps1_v26 (W2 m ρ c)).trans (W2_norm m ρ c)

/-! ## At the second dense step's exit -/

/-- The second layer's dense step applied to the first layer's aggregate. -/
abbrev hid (c : Dev nD) := Cert.Gcn.dense2 (F := Ideal) (agg1 m c)
  (Cert.Gcn.row64 (F := Ideal) (m ((c : Thread nD τ).loc main_arg3))) (m ((c : Thread nD τ).loc main_arg4))

theorem W4_dense (c : Dev nD) : W4 m ρ c (Proc.devRef .tc main_v42) = hid m c := by
  refine (W4_arr m ρ c 3).trans ((MatMul2.final (V3 m ρ) c).trans ?_)
  show Cert.Gcn.dense2 (F := Ideal) (W3 m ρ c (Proc.devRef .tc main_v40)) (W3 m ρ c (Proc.devRef .tc main_v41))
    (W3 m ρ c (Proc.devRef .tc main_arg4)) = _
  rw [W3_agg, W3_bias, W3_arg4]
theorem W4_arg5 (c : Dev nD) : W4 m ρ c (Proc.devRef .tc main_arg5) = m ((c : Thread nD τ).loc main_arg5) :=
  (W4_of_ne m ρ c main_arg5 (by decide)).trans (W3_arg5 m ρ c)
theorem W4_src (c : Dev nD) : W4 m ρ c (Proc.devRef .tc main_v3) = srcOf m c :=
  (W4_of_ne m ρ c main_v3 (by decide)).trans (W3_src m ρ c)
theorem W4_dst (c : Dev nD) : W4 m ρ c (Proc.devRef .tc main_v6) = dstOf m c :=
  (W4_of_ne m ρ c main_v6 (by decide)).trans (W3_dst m ρ c)
theorem W4_norm (c : Dev nD) : W4 m ρ c (Proc.devRef .tc main_v26) = normOf m c :=
  (W4_of_ne m ρ c main_v26 (by decide)).trans (W3_norm m ρ c)

/-! ## At the last step's entry, and the result -/

theorem W5_agg (c : Dev nD) :
    W5 m ρ c (Proc.devRef .tc main_v55) = Cert.Gcn.aggr16 (F := Ideal) (srcOf m c) (dstOf m c) (normOf m c) (hid m c) := by
  refine (Stretch.aggr16_after (W4 m ρ c)).trans ?_
  rw [W4_src, W4_dst, W4_norm, W4_dense]
theorem W5_bias (c : Dev nD) :
    W5 m ρ c (Proc.devRef .tc main_v56) = Cert.Gcn.row16 (F := Ideal) (m ((c : Thread nD τ).loc main_arg5)) := by
  refine (Stretch.bias2_after (W4 m ρ c)).trans ?_
  rw [W4_arg5]
  exact Rows.row16_eq _ _

/-- The result array at the last boundary is `G` of the arguments as launched. -/
theorem value (c : Dev nD) :
    W6 m ρ c (Proc.devRef .tc main_v57)
      = Cert.Gcn.G (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  refine (W6_arr m ρ c 2).trans ((BiasAdd.final (V5 m ρ) c).trans ?_)
  show Cert.Gcn.biasOut (F := Ideal) (W5 m ρ c (Proc.devRef .tc main_v55)) (W5 m ρ c (Proc.devRef .tc main_v56)) = _
  rw [W5_agg, W5_bias]
  rfl

/-! ## The run -/

set_option backward.isDefEq.respectTransparency.types false in
/-- From any memory with zero counters every weakly fair execution of the kernel's program terminates, nothing
    faulting, with its result array at `G` of the arguments as launched and the arguments unchanged: the launch over
    the program's six segments, the last thread state read against the final state, the result buffer by `value`. -/
theorem run : θ_run defs (onTc (τ := τ) (main (F := Ideal))) ⟨m, fun _ => 0, ρ⟩ (fun r => ∀ c : Dev nD,
      r.2.mem ((c.tc : Thread nD τ).loc main_v57)
        = Cert.Gcn.G (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v57 (by decide))).trans (value m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.Gcn.Kernel

end
-- ==== Proof.RefValue.lean ====
/-
  The reference read as the shared pipeline: the term its run leaves in its result array is `G` of its arguments,
  operation for operation (each named piece of `G` stands for the operations the reference applies there).
-/
import proofs.«154375_j29222957482126_1_alg».proof.Proof.Gen.ReferenceIdeal.Run
import proofs.«154375_j29222957482126_1_alg».proof.Proof.Glue

noncomputable section

namespace Cert.Gcn.Ref

open Idealize.ShloMosaic Idealize.ShloMosaic.TcCoe Idealize.SL.Sem Cert.ReferenceIdeal

variable {F : FTy → Type} [FloatOps F]

set_option maxRecDepth 8192 in
/-- The reference's result term is `G` of the arguments as launched. -/
theorem result_eq (m : (ℓ : Loc nD τ sig) → Buf (Elt F) ℓ) (c : Dev nD) :
    Cert.ReferenceIdeal.Value.res_main_v81 m c
      = Cert.Gcn.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v81 Cert.Gcn.G Cert.Gcn.biasOut Cert.Gcn.aggr16 Cert.Gcn.aggr64 Cert.Gcn.dense2
    Cert.Gcn.dense1 Cert.Gcn.row64 Cert.Gcn.row16 Cert.Gcn.norm Cert.Gcn.invSqrtDeg Cert.Gcn.rowIdx Cert.Gcn.segIdx
    Cert.Gcn.src Cert.Gcn.dst
  rfl

end Cert.Gcn.Ref

end
-- ==== Proof.lean ====
/-
  A two-layer graph convolution with self loops and symmetric normalisation, as three TensorCore kernels among host
  gathers and scatters, against the same network written with host operations only.

  Both programs compute, from node features `x`, an edge list `e`, weights `W1`, `W2` and biases `b1`, `b2`,
      out = A (max (A (x · W1) + b1) 0 · W2) + b2,
  where `A` sends node features `z` to `∑ over edges j → i (self loops included) of z_j / √(deg i · deg j)`: a gather of the
  sources' rows, a scaling by the edge weights, a scatter-add into the destinations' rows. The kernel's program runs the
  three dense steps — `x · W1`; the bias, the clamp and `· W2` fused; the last bias — on the TensorCore, ten blocks of
  10000 rows each, with the operands of the matrix products rounded to bf16; everything else is the same host operations,
  in the same order, as the reference's. On the extended reals a change of float format is the identity and a block of
  rows of a matrix product is the product of the block of rows, so each dense step leaves exactly the array the
  reference's corresponding operations leave (Proof/Region0, Region1, Region2), and the two programs' results are one
  function `G` of the arguments (Proof/Glue: `G`; Proof/KernelRun: the kernel's program; Proof/RefValue: the reference).
  No law of arithmetic beyond this is used, so the precondition — every float input finite — is never opened: the
  equality holds at infinite inputs too. The kernel's idealization rewrote no operation, so `preserves` is trivial; the
  kernels' frames are the generated ones, and the reference's frame is its generated run with the result dropped.
-/
import proofs.«154375_j29222957482126_1_alg».proof.Defs
import proofs.«154375_j29222957482126_1_alg».proof.Proof.Gen.Kernel
import proofs.«154375_j29222957482126_1_alg».proof.Proof.Gen.Kernel.Skeleton
import proofs.«154375_j29222957482126_1_alg».proof.Proof.Gen.Kernel.Launch
import proofs.«154375_j29222957482126_1_alg».proof.Proof.Gen.Kernel.Points
import proofs.«154375_j29222957482126_1_alg».proof.Proof.Gen.Kernel.Frame
import proofs.«154375_j29222957482126_1_alg».proof.Proof.Gen.KernelIdeal
import proofs.«154375_j29222957482126_1_alg».proof.Proof.Gen.KernelIdeal.Skeleton
import proofs.«154375_j29222957482126_1_alg».proof.Proof.Gen.KernelIdeal.Launch
import proofs.«154375_j29222957482126_1_alg».proof.Proof.Gen.KernelIdeal.Points
import proofs.«154375_j29222957482126_1_alg».proof.Proof.Gen.KernelIdeal.Frame
import proofs.«154375_j29222957482126_1_alg».proof.Proof.Gen.ReferenceIdeal
import proofs.«154375_j29222957482126_1_alg».proof.Proof.Gen.ReferenceIdeal.Run
import proofs.«154375_j29222957482126_1_alg».proof.Proof.Gen.Pre_finite_inputs
import proofs.«154375_j29222957482126_1_alg».proof.Proof.KernelRun
import proofs.«154375_j29222957482126_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with their result arrays at `G` of the arguments. -/
theorem algebraic : Cert.algebraic_KernelIdeal_ReferenceIdeal := by
  intro m ρ m' ρ' _ hagree
  refine ⟨_, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.Gcn.Ref.result_eq, (hagree c).1, (hagree c).2.1, (hagree c).2.2.1, (hagree c).2.2.2.1, (hagree c).2.2.2.2.1,
    (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
